-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S100000 : Shape := ⟨1, ![100000]⟩
abbrev S256x32 : Shape := ⟨2, ![256, 32]⟩
abbrev S32 : Shape := ⟨1, ![32]⟩
abbrev S32x8 : Shape := ⟨2, ![32, 8]⟩
abbrev S8 : Shape := ⟨1, ![8]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S8 .f32) (main_v13 : IVec S_ 1) (main_v16 : IVec S32x8 1) : IVec S_ 1 :=
  let main_c_5 : IVec S_ 1 := constantI S_ 1 1#1
  let main_v17 : IVec S_ 1 := (fun x v => Host.reduce IntOp.andi x v reducesTo_S32x8_S_d0_1 h_S_) main_v16 main_c_5
  let main_v18 : IVec S_ 1 := andi main_v13 main_v17
  let main_v19 : FVec F S8 .f32 := Host.absf main_arg6
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : IVec S100000 32) (main_arg3 : FVec F S256x32 .f32) (main_arg4 : FVec F S32 .f32) (main_arg5 : FVec F S32x8 .f32) (main_arg6 : FVec F S8 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x32 .f32 := Host.absf main_arg3
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x8 .f32 := Host.absf main_arg5
  let main_cst_4 : FVec F S_ .f32 := constant S_ .f32 0x7F800000#32
  let main_v15 : FVec F S32x8 .f32 := broadcastInDim S32x8 ![] bcast_S_S32x8 main_cst_4
  let main_v16 : IVec S32x8 1 := cmpf .olt main_v14 main_v15
  fn_part1 (F := F) main_arg6 main_v13 main_v16
-- ==== Kernel.lean ====
abbrev S100000x256 : Shape := ⟨2, ![100000, 256]⟩
abbrev S2x1600000 : Shape := ⟨2, ![2, 1600000]⟩
abbrev S100000 : Shape := ⟨1, ![100000]⟩
abbrev S256x32 : Shape := ⟨2, ![256, 32]⟩
abbrev S32 : Shape := ⟨1, ![32]⟩
abbrev S32x8 : Shape := ⟨2, ![32, 8]⟩
abbrev S8 : Shape := ⟨1, ![8]⟩
abbrev S100000x32 : Shape := ⟨2, ![100000, 32]⟩
abbrev S5000x256 : Shape := ⟨2, ![5000, 256]⟩
abbrev S5000x32 : Shape := ⟨2, ![5000, 32]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S100000x8 : Shape := ⟨2, ![100000, 8]⟩
abbrev S5000x8 : Shape := ⟨2, ![5000, 8]⟩
abbrev S1700000x8 : Shape := ⟨2, ![1700000, 8]⟩
abbrev S1x8 : Shape := ⟨2, ![1, 8]⟩
abbrev S64x8 : Shape := ⟨2, ![64, 8]⟩
abbrev S100000x1 : Shape := ⟨2, ![100000, 1]⟩
abbrev S64 : Shape := ⟨1, ![64]⟩
abbrev S64x1 : Shape := ⟨2, ![64, 1]⟩

abbrev nBuf : Space → Nat
  | .hbm => 164
  | .vmem => 10
  | .smem => 0
  | _ => 0

abbrev hbmTy0_0 (i : Nat) : BufTy := match i % 128 with
  | 0 => ⟨S100000x256, .f32⟩
  | 1 => ⟨S2x1600000, .i32⟩
  | 2 => ⟨S100000, .i32⟩
  | 3 => ⟨S256x32, .f32⟩
  | 4 => ⟨S32, .f32⟩
  | 5 => ⟨S32x8, .f32⟩
  | 6 => ⟨S8, .f32⟩
  | 7 => ⟨S100000x32, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x32, .f32⟩
  | 57 => ⟨S1700000x1, .f32⟩
  | 58 => ⟨S1700000x32, .f32⟩
  | 59 => ⟨S1700000x32, .f32⟩
  | 60 => ⟨S_, .f32⟩
  | 61 => ⟨S100000x32, .f32⟩
  | 62 => ⟨S1700000x1, .i32⟩
  | 63 => ⟨S100000x32, .f32⟩
  | 64 => ⟨S1x32, .f32⟩
  | 65 => ⟨S100000x32, .f32⟩
  | 66 => ⟨S100000x32, .f32⟩
  | 67 => ⟨S_, .f32⟩
  | 68 => ⟨S100000x32, .f32⟩
  | 69 => ⟨S100000x32, .f32⟩
  | 70 => ⟨S100000x8, .f32⟩
  | 71 => ⟨S1x1600000, .i32⟩
  | 72 => ⟨S1600000, .i32⟩
  | 73 => ⟨S1x1600000, .i32⟩
  | 74 => ⟨S1600000, .i32⟩
  | 75 => ⟨S100000, .i32⟩
  | 76 => ⟨S1700000, .i32⟩
  | 77 => ⟨S1700000, .i32⟩
  | 78 => ⟨S_, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x8, .f32⟩
  | 120 => ⟨S1700000x1, .f32⟩
  | 121 => ⟨S1700000x8, .f32⟩
  | 122 => ⟨S1700000x8, .f32⟩
  | 123 => ⟨S_, .f32⟩
  | 124 => ⟨S100000x8, .f32⟩
  | 125 => ⟨S1700000x1, .i32⟩
  | 126 => ⟨S100000x8, .f32⟩
  | 127 => ⟨S1x8, .f32⟩
  | _ => ⟨S100000x256, .f32⟩

abbrev hbmTy0_1 (i : Nat) : BufTy := match i % 128 with
  | 0 => ⟨S100000x8, .f32⟩
  | 1 => ⟨S100000x8, .f32⟩
  | 2 => ⟨S_, .f32⟩
  | 3 => ⟨S100000x8, .f32⟩
  | 4 => ⟨S100000x8, .f32⟩
  | 5 => ⟨S_, .f32⟩
  | 6 => ⟨S64x8, .f32⟩
  | 7 => ⟨S100000x1, .i32⟩
  | 8 => ⟨S64x8, .f32⟩
  | 9 => ⟨S_, .f32⟩
  | 10 => ⟨S100000, .f32⟩
  | 11 => ⟨S_, .f32⟩
  | 12 => ⟨S64, .f32⟩
  | 13 => ⟨S100000x1, .i32⟩
  | 14 => ⟨S64, .f32⟩
  | 15 => ⟨S_, .f32⟩
  | 16 => ⟨S64, .f32⟩
  | 17 => ⟨S64, .f32⟩
  | 18 => ⟨S64x1, .f32⟩
  | 19 => ⟨S64x8, .f32⟩
  | 20 => ⟨S64x8, .f32⟩
  | 21 => ⟨S_, .f32⟩
  | 22 => ⟨S64, .f32⟩
  | 23 => ⟨S_, .f32⟩
  | 24 => ⟨S64, .f32⟩
  | 25 => ⟨S64, .f32⟩
  | 26 => ⟨S64x1, .f32⟩
  | 27 => ⟨S64x8, .f32⟩
  | 28 => ⟨S64x8, .f32⟩
  | 29 => ⟨S64x8, .f32⟩
  | 30 => ⟨S_, .f32⟩
  | 31 => ⟨S64, .f32⟩
  | 32 => ⟨S64x1, .f32⟩
  | 33 => ⟨S64x1, .f32⟩
  | 34 => ⟨S64x8, .f32⟩
  | 35 => ⟨S64x8, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S32x8, .f32⟩
  | .local _ .vmem, ⟨8, _⟩ => ⟨S5000x8, .f32⟩
  | .local _ .vmem, ⟨9, _⟩ => ⟨S5000x8, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call3_cst : Ref sig .tc := ⟨.hbm, 130, rfl⟩
abbrev main_call3_v0 : Ref sig .tc := ⟨.hbm, 131, rfl⟩
abbrev main_v95 : Ref sig .tc := ⟨.hbm, 132, rfl⟩
abbrev main_cst_20 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_21 : Ref sig .tc := ⟨.hbm, 137, rfl⟩
abbrev main_v99 : Ref sig .tc := ⟨.hbm, 138, rfl⟩
abbrev main_cst_22 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_23 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_call4_cst : Ref sig .tc := ⟨.hbm, 149, rfl⟩
abbrev main_call4_v0 : Ref sig .tc := ⟨.hbm, 150, rfl⟩
abbrev main_call4_cst_0 : Ref sig .tc := ⟨.hbm, 151, rfl⟩
abbrev main_call4_v1 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_call4_v5 : Ref sig .tc := ⟨.hbm, 156, rfl⟩
abbrev main_call4_v6 : Ref sig .tc := ⟨.hbm, 157, rfl⟩
abbrev main_call4_cst_1 : Ref sig .tc := ⟨.hbm, 158, rfl⟩
abbrev main_call4_v7 : Ref sig .tc := ⟨.hbm, 159, rfl⟩
abbrev main_call4_v8 : Ref sig .tc := ⟨.hbm, 160, rfl⟩
abbrev main_call4_v9 : Ref sig .tc := ⟨.hbm, 161, rfl⟩
abbrev main_call4_v10 : Ref sig .tc := ⟨.hbm, 162, rfl⟩
abbrev main_v108 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S5000x32_S5000x32_0_0 : ∀ a, (![0, 0] : Fin 2 → Nat) a + S5000x32.size a ≤ S5000x32.size a
  h_S5000x32 : 0 < S5000x32.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  shapeCasts_S5000x32_S5000x32 : S5000x32.ShapeCasts S5000x32
  inb_S32x8_S32x8_0_0 : ∀ a, (![0, 0] : Fin 2 → Nat) a + S32x8.size a ≤ S32x8.size a
  h_S32x8 : 0 < S32x8.numel
  inb_S5000x8_S5000x8_0_0 : ∀ a, (![0, 0] : Fin 2 → Nat) a + S5000x8.size a ≤ S5000x8.size a
  h_S5000x8 : 0 < S5000x8.numel
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S64x8 : S_.BroadcastsInDim S64x8 (![] : Fin 0 → Fin S64x8.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x8_0_1 : S64x1.BroadcastsInDim S64x8 (![0, 1] : Fin 2 → Fin S64x8.rank)
  reducesTo_S64x8_S64_d1 : S64x8.ReducesTo [1] S64
  h_S_ : 0 < S_.numel
  dot_S5000x256_S256x32_S5000x32_1_0_0_1_n_n_wf : DotDims.WF S5000x256 S256x32 S5000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x8_S5000x8_1_0_0_1_n_n_wf : DotDims.WF S5000x32 S32x8 S5000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1
  scatter_S64x8_S100000x1_S100000x8_1_0_0_1_wf : ScatterDims.WF S64x8 S100000x1 S100000x8 [1] [0] [0] 1
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x8.size a ≤ S32x8.size a
  hwx1_1 : ∀ i : grid1.Coords, EltTy.bits .f32 = 32 ∨ (Rect.block (s := S32x8) S32x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x8.size a ≤ S100000x8.size a
  hwx1_2 : ∀ i : grid1.Coords, EltTy.bits .f32 = 32 ∨ (Rect.block (s := S100000x8) S5000x8.size (cc1_transform_2 i) (hinb1_2 i)).WholeWords (EltTy.packing .f32)

variable [Facts₀]

def dot_S5000x256_S256x32_S5000x32_1_0_0_1_n_n : DotDims S5000x256 S256x32 S5000x32 where
  lhsContracting := [1]
  rhsContracting := [0]
  lhsNonContracting := [0]
  rhsNonContracting := [1]
  lhsBatch := []
  rhsBatch := []
  wf := dot_S5000x256_S256x32_S5000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x8_S5000x8_1_0_0_1_n_n : DotDims S5000x32 S32x8 S5000x8 where
  lhsContracting := [1]
  rhsContracting := [0]
  lhsNonContracting := [0]
  rhsNonContracting := [1]
  lhsBatch := []
  rhsBatch := []
  wf := dot_S5000x32_S32x8_S5000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf
def scatter_S64x8_S100000x1_S100000x8_1_0_0_1 : ScatterDims S64x8 S100000x1 S100000x8 where
  updateWindowDims := [1]
  insertedWindowDims := [0]
  scatterDimsToOperandDims := [0]
  indexVectorDim := 1
  wf := scatter_S64x8_S100000x1_S100000x8_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S100000 : Shape := ⟨1, ![100000]⟩
abbrev S256x32 : Shape := ⟨2, ![256, 32]⟩
abbrev S32 : Shape := ⟨1, ![32]⟩
abbrev S32x8 : Shape := ⟨2, ![32, 8]⟩
abbrev S8 : Shape := ⟨1, ![8]⟩
abbrev S100000x32 : Shape := ⟨2, ![100000, 32]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S100000x8 : Shape := ⟨2, ![100000, 8]⟩
abbrev S1700000x8 : Shape := ⟨2, ![1700000, 8]⟩
abbrev S1x8 : Shape := ⟨2, ![1, 8]⟩
abbrev S64x8 : Shape := ⟨2, ![64, 8]⟩
abbrev S100000x1 : Shape := ⟨2, ![100000, 1]⟩
abbrev S64 : Shape := ⟨1, ![64]⟩
abbrev S64x1 : Shape := ⟨2, ![64, 1]⟩

abbrev nBuf : Space → Nat
  | .hbm => 164
  | .vmem => 0
  | .smem => 0
  | _ => 0

abbrev hbmTy0_0 (i : Nat) : BufTy := match i % 128 with
  | 0 => ⟨S100000x256, .f32⟩
  | 1 => ⟨S2x1600000, .i32⟩
  | 2 => ⟨S100000, .i32⟩
  | 3 => ⟨S256x32, .f32⟩
  | 4 => ⟨S32, .f32⟩
  | 5 => ⟨S32x8, .f32⟩
  | 6 => ⟨S8, .f32⟩
  | 7 => ⟨S100000x32, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x32, .f32⟩
  | 57 => ⟨S1700000x1, .f32⟩
  | 58 => ⟨S1700000x32, .f32⟩
  | 59 => ⟨S1700000x32, .f32⟩
  | 60 => ⟨S_, .f32⟩
  | 61 => ⟨S100000x32, .f32⟩
  | 62 => ⟨S1700000x1, .i32⟩
  | 63 => ⟨S100000x32, .f32⟩
  | 64 => ⟨S1x32, .f32⟩
  | 65 => ⟨S100000x32, .f32⟩
  | 66 => ⟨S100000x32, .f32⟩
  | 67 => ⟨S_, .f32⟩
  | 68 => ⟨S100000x32, .f32⟩
  | 69 => ⟨S100000x32, .f32⟩
  | 70 => ⟨S100000x8, .f32⟩
  | 71 => ⟨S1x1600000, .i32⟩
  | 72 => ⟨S1600000, .i32⟩
  | 73 => ⟨S1x1600000, .i32⟩
  | 74 => ⟨S1600000, .i32⟩
  | 75 => ⟨S100000, .i32⟩
  | 76 => ⟨S1700000, .i32⟩
  | 77 => ⟨S1700000, .i32⟩
  | 78 => ⟨S_, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x8, .f32⟩
  | 120 => ⟨S1700000x1, .f32⟩
  | 121 => ⟨S1700000x8, .f32⟩
  | 122 => ⟨S1700000x8, .f32⟩
  | 123 => ⟨S_, .f32⟩
  | 124 => ⟨S100000x8, .f32⟩
  | 125 => ⟨S1700000x1, .i32⟩
  | 126 => ⟨S100000x8, .f32⟩
  | 127 => ⟨S1x8, .f32⟩
  | _ => ⟨S100000x256, .f32⟩

abbrev hbmTy0_1 (i : Nat) : BufTy := match i % 128 with
  | 0 => ⟨S100000x8, .f32⟩
  | 1 => ⟨S100000x8, .f32⟩
  | 2 => ⟨S_, .f32⟩
  | 3 => ⟨S100000x8, .f32⟩
  | 4 => ⟨S100000x8, .f32⟩
  | 5 => ⟨S_, .f32⟩
  | 6 => ⟨S64x8, .f32⟩
  | 7 => ⟨S100000x1, .i32⟩
  | 8 => ⟨S64x8, .f32⟩
  | 9 => ⟨S_, .f32⟩
  | 10 => ⟨S100000, .f32⟩
  | 11 => ⟨S_, .f32⟩
  | 12 => ⟨S64, .f32⟩
  | 13 => ⟨S100000x1, .i32⟩
  | 14 => ⟨S64, .f32⟩
  | 15 => ⟨S_, .f32⟩
  | 16 => ⟨S64, .f32⟩
  | 17 => ⟨S64, .f32⟩
  | 18 => ⟨S64x1, .f32⟩
  | 19 => ⟨S64x8, .f32⟩
  | 20 => ⟨S64x8, .f32⟩
  | 21 => ⟨S_, .f32⟩
  | 22 => ⟨S64, .f32⟩
  | 23 => ⟨S_, .f32⟩
  | 24 => ⟨S64, .f32⟩
  | 25 => ⟨S64, .f32⟩
  | 26 => ⟨S64x1, .f32⟩
  | 27 => ⟨S64x8, .f32⟩
  | 28 => ⟨S64x8, .f32⟩
  | 29 => ⟨S64x8, .f32⟩
  | 30 => ⟨S_, .f32⟩
  | 31 => ⟨S64, .f32⟩
  | 32 => ⟨S64x1, .f32⟩
  | 33 => ⟨S64x1, .f32⟩
  | 34 => ⟨S64x8, .f32⟩
  | 35 => ⟨S64x8, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_cst_10 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call3_cst : Ref sig .tc := ⟨.hbm, 130, rfl⟩
abbrev main_call3_v0 : Ref sig .tc := ⟨.hbm, 131, rfl⟩
abbrev main_v95 : Ref sig .tc := ⟨.hbm, 132, rfl⟩
abbrev main_cst_20 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_21 : Ref sig .tc := ⟨.hbm, 137, rfl⟩
abbrev main_v99 : Ref sig .tc := ⟨.hbm, 138, rfl⟩
abbrev main_cst_22 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_23 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_call4_cst : Ref sig .tc := ⟨.hbm, 149, rfl⟩
abbrev main_call4_v0 : Ref sig .tc := ⟨.hbm, 150, rfl⟩
abbrev main_call4_cst_0 : Ref sig .tc := ⟨.hbm, 151, rfl⟩
abbrev main_call4_v1 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_call4_v5 : Ref sig .tc := ⟨.hbm, 156, rfl⟩
abbrev main_call4_v6 : Ref sig .tc := ⟨.hbm, 157, rfl⟩
abbrev main_call4_cst_1 : Ref sig .tc := ⟨.hbm, 158, rfl⟩
abbrev main_call4_v7 : Ref sig .tc := ⟨.hbm, 159, rfl⟩
abbrev main_call4_v8 : Ref sig .tc := ⟨.hbm, 160, rfl⟩
abbrev main_call4_v9 : Ref sig .tc := ⟨.hbm, 161, rfl⟩
abbrev main_call4_v10 : Ref sig .tc := ⟨.hbm, 162, rfl⟩
abbrev main_v108 : Ref sig .tc := ⟨.hbm, 163, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x8_0_1 : S1700000x1.BroadcastsInDim S1700000x8 (![0, 1] : Fin 2 → Fin S1700000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S64x8 : S_.BroadcastsInDim S64x8 (![] : Fin 0 → Fin S64x8.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x8_0_1 : S64x1.BroadcastsInDim S64x8 (![0, 1] : Fin 2 → Fin S64x8.rank)
  reducesTo_S64x8_S64_d1 : S64x8.ReducesTo [1] S64
  h_S_ : 0 < S_.numel
  dot_S100000x256_S256x32_S100000x32_1_0_0_1_n_n_wf : DotDims.WF S100000x256 S256x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x8_S100000x8_1_0_0_1_n_n_wf : DotDims.WF S100000x32 S32x8 S100000x8 [1] [0] [0] [1] [] []
  gather_S100000x8_S1700000x1_S1700000x8_1_0_n_n_0_1_18_wf : GatherDims.WF S100000x8 S1700000x1 S1700000x8 [1] [0] [] [0] [] 1 ![1, 8]
  scatter_S100000x8_S1700000x1_S1700000x8_1_0_0_1_wf : ScatterDims.WF S100000x8 S1700000x1 S1700000x8 [1] [0] [0] 1
  scatter_S64x8_S100000x1_S100000x8_1_0_0_1_wf : ScatterDims.WF S64x8 S100000x1 S100000x8 [1] [0] [0] 1
  scatter_S64_S100000x1_S100000_n_0_0_1_wf : ScatterDims.WF S64 S100000x1 S100000 [] [0] [0] 1

variable [Facts₀]

def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x8_S100000x8_1_0_0_1_n_n : DotDims S100000x32 S32x8 S100000x8 where
  lhsContracting := [1]
  rhsContracting := [0]
  lhsNonContracting := [0]
  rhsNonContracting := [1]
  lhsBatch := []
  rhsBatch := []
  wf := dot_S100000x32_S32x8_S100000x8_1_0_0_1_n_n_wf
def gather_S100000x8_S1700000x1_S1700000x8_1_0_n_n_0_1_18 : GatherDims S100000x8 S1700000x1 S1700000x8 where
  offsetDims := [1]
  collapsedSliceDims := [0]
  operandBatchingDims := []
  startIndicesBatchingDims := []
  startIndexMap := [0]
  indexVectorDim := 1
  sliceSizes := ![1, 8]
  wf := gather_S100000x8_S1700000x1_S1700000x8_1_0_n_n_0_1_18_wf
def scatter_S100000x8_S1700000x1_S1700000x8_1_0_0_1 : ScatterDims S100000x8 S1700000x1 S1700000x8 where
  updateWindowDims := [1]
  insertedWindowDims := [0]
  scatterDimsToOperandDims := [0]
  indexVectorDim := 1
  wf := scatter_S100000x8_S1700000x1_S1700000x8_1_0_0_1_wf
def scatter_S64x8_S100000x1_S100000x8_1_0_0_1 : ScatterDims S64x8 S100000x1 S100000x8 where
  updateWindowDims := [1]
  insertedWindowDims := [0]
  scatterDimsToOperandDims := [0]
  indexVectorDim := 1
  wf := scatter_S64x8_S100000x1_S100000x8_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KernelRun.lean ====
/-
  The idealized kernel's run with its RESULT kept.  The program is two tiled matrix products with stretches of host
  operations before, between and after them.  Its run is the launch over those segments: at every segment boundary the
  TensorCore's buffers hold a known valuation — the launch memory, then each product's output array at what the
  write-backs of its twenty row blocks leave, then each host stretch's fold over what came before — and the last of
  these valuations, `W12`, is what every unscoped buffer holds in the final state.  The frame only keeps the seven
  argument arrays of that final valuation; here the result buffer is kept as well, at `W12` of its reference.
-/
import proofs.«180748_j77850577207790_1_alg».proof.Proof.Gen.KernelIdeal.Frame

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the idealized kernel's @main terminates,
    nothing faulting; the result buffer ends at the last boundary valuation read at its reference, and the seven
    argument arrays end as launched. -/
theorem run_result : θ_run defs (onTc (τ := τ) (main (F := F))) ⟨m, fun _ => 0, ρ⟩ (fun r => ∀ c : Dev nD,
      r.2.mem ((c.tc : Thread nD τ).loc main_v108) = W12 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v108 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c)⟩)

end Cert.KernelIdeal.KernelRun

end
-- ==== Proof.RegionProduct.lean ====
/-
  Each tiled matrix product of the idealized kernel is the whole matrix product.  A region walks twenty grid points;
  point t stages rows 5000·t … 5000·t + 4999 of the left array and the whole weight, multiplies them (on the extended
  reals rounding an operand to bf16 is the identity, and the accumulator is the zero splat, so an entry of the tile
  product is the plain sum over the contraction index) and writes the [5000, n] tile back as block t of the output.
  Read at an index, the tile product at (p, q) and the whole product at (5000·t + p, q) are the same sum over k; the
  twenty blocks tile the output, row r lying in block r / 5000; so the output array ends as the whole product of the
  arrays the region was entered with.  The second region is the first with [100000, 32] × [32, 8]; its body casts the
  row tile to its own shape before rounding, which is the identity.
-/
import proofs.«180748_j77850577207790_1_alg».proof.Proof.Gen.KernelIdeal.Frame
import proofs.«180748_j77850577207790_1_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.RegionProduct

open Cert.KernelIdeal Cert.KernelIdeal.Gen Idealize.ShloMosaic Idealize.ShloMosaic.TcCoe Idealize.SL.Sem
open Idealize.ShloMosaic.Pipeline (Dat)
open Idealize.ShloMosaic.ValueIdx

/-- The origin of a rank-2 rectangle, as the constant-zero offset. -/
theorem origin2 : (![0, 0] : Fin 2 → Nat) = fun _ => 0 := funext fun a => by fin_cases a <;> rfl

/-! ## Region 0: a [5000,256] tile of rows times the whole [256,32] weight -/

theorem tileDot0_lhs_row (i : S5000x32.Idx) (s : dot_S5000x256_S256x32_S5000x32_1_0_0_1_n_n.contr.Idx) :
    (dot_S5000x256_S256x32_S5000x32_1_0_0_1_n_n.lhsIdx i s 0).val = (i 0).val := by
  unfold DotDims.lhsIdx
  rw [dif_neg (show ¬(0 : Fin S5000x256.rank) ∈ dot_S5000x256_S256x32_S5000x32_1_0_0_1_n_n.lhsBatch by decide), dif_pos (show (0 : Fin S5000x256.rank) ∈ dot_S5000x256_S256x32_S5000x32_1_0_0_1_n_n.lhsNonContracting by decide)]
  rfl
theorem tileDot0_lhs_contr (i : S5000x32.Idx) (s : dot_S5000x256_S256x32_S5000x32_1_0_0_1_n_n.contr.Idx) :
    (dot_S5000x256_S256x32_S5000x32_1_0_0_1_n_n.lhsIdx i s 1).val = (s ⟨0, by decide⟩).val :=
  dot_S5000x256_S256x32_S5000x32_1_0_0_1_n_n.lhsIdx_val_of_single rfl i s
theorem tileDot0_rhs_contr (i : S5000x32.Idx) (s : dot_S5000x256_S256x32_S5000x32_1_0_0_1_n_n.contr.Idx) :
    (dot_S5000x256_S256x32_S5000x32_1_0_0_1_n_n.rhsIdx i s 0).val = (s ⟨0, by decide⟩).val :=
  dot_S5000x256_S256x32_S5000x32_1_0_0_1_n_n.rhsIdx_val_of_single rfl i s
theorem tileDot0_rhs_col (i : S5000x32.Idx) (s : dot_S5000x256_S256x32_S5000x32_1_0_0_1_n_n.contr.Idx) :
    (dot_S5000x256_S256x32_S5000x32_1_0_0_1_n_n.rhsIdx i s 1).val = (i 1).val := by
  unfold DotDims.rhsIdx
  rw [dif_neg (show ¬(1 : Fin S256x32.rank) ∈ dot_S5000x256_S256x32_S5000x32_1_0_0_1_n_n.rhsBatch by decide), dif_pos (show (1 : Fin S256x32.rank) ∈ dot_S5000x256_S256x32_S5000x32_1_0_0_1_n_n.rhsNonContracting by decide)]
  rfl

theorem wholeDot0_lhs_row (i : S100000x32.Idx) (s : Cert.ReferenceIdeal.dot_S100000x256_S256x32_S100000x32_1_0_0_1_n_n.contr.Idx) :
    (Cert.ReferenceIdeal.dot_S100000x256_S256x32_S100000x32_1_0_0_1_n_n.lhsIdx i s 0).val = (i 0).val := by
  unfold DotDims.lhsIdx
  rw [dif_neg (show ¬(0 : Fin S100000x256.rank) ∈ Cert.ReferenceIdeal.dot_S100000x256_S256x32_S100000x32_1_0_0_1_n_n.lhsBatch by decide), dif_pos (show (0 : Fin S100000x256.rank) ∈ Cert.ReferenceIdeal.dot_S100000x256_S256x32_S100000x32_1_0_0_1_n_n.lhsNonContracting by decide)]
  rfl
theorem wholeDot0_lhs_contr (i : S100000x32.Idx) (s : Cert.ReferenceIdeal.dot_S100000x256_S256x32_S100000x32_1_0_0_1_n_n.contr.Idx) :
    (Cert.ReferenceIdeal.dot_S100000x256_S256x32_S100000x32_1_0_0_1_n_n.lhsIdx i s 1).val = (s ⟨0, by decide⟩).val :=
  Cert.ReferenceIdeal.dot_S100000x256_S256x32_S100000x32_1_0_0_1_n_n.lhsIdx_val_of_single rfl i s
theorem wholeDot0_rhs_contr (i : S100000x32.Idx) (s : Cert.ReferenceIdeal.dot_S100000x256_S256x32_S100000x32_1_0_0_1_n_n.contr.Idx) :
    (Cert.ReferenceIdeal.dot_S100000x256_S256x32_S100000x32_1_0_0_1_n_n.rhsIdx i s 0).val = (s ⟨0, by decide⟩).val :=
  Cert.ReferenceIdeal.dot_S100000x256_S256x32_S100000x32_1_0_0_1_n_n.rhsIdx_val_of_single rfl i s
theorem wholeDot0_rhs_col (i : S100000x32.Idx) (s : Cert.ReferenceIdeal.dot_S100000x256_S256x32_S100000x32_1_0_0_1_n_n.contr.Idx) :
    (Cert.ReferenceIdeal.dot_S100000x256_S256x32_S100000x32_1_0_0_1_n_n.rhsIdx i s 1).val = (i 1).val := by
  unfold DotDims.rhsIdx
  rw [dif_neg (show ¬(1 : Fin S256x32.rank) ∈ Cert.ReferenceIdeal.dot_S100000x256_S256x32_S100000x32_1_0_0_1_n_n.rhsBatch by decide), dif_pos (show (1 : Fin S256x32.rank) ∈ Cert.ReferenceIdeal.dot_S100000x256_S256x32_S100000x32_1_0_0_1_n_n.rhsNonContracting by decide)]
  rfl

/-- The tile product at (p, q) is the sum over k of row p of the tile times column q of the weight: rounding the
    operands is the identity on the extended reals and the accumulator is the zero splat. -/
theorem tileProduct0_apply (x0 : FVec Ideal S5000x256 .f32) (x1 : FVec Ideal S256x32 .f32) (p : Fin 5000) (q : Fin 32) :
    k0_pay1 (F := Ideal) x0 x1 (ix2 p q) = ∑ k : Fin 256, x0 (ix2 p k) * x1 (ix2 k q) := by
  unfold k0_pay1
  refine (Ideal.matmul_constant_zero_apply dot_S5000x256_S256x32_S5000x32_1_0_0_1_n_n none _ _ (ix2 p q)).trans ?_
  rw [← Equiv.sum_comp (contrEquiv1 dot_S5000x256_S256x32_S5000x32_1_0_0_1_n_n 256 rfl rfl).symm]
  refine Finset.sum_congr rfl fun k _ => ?_
  have hk := contrEquiv1_symm_val dot_S5000x256_S256x32_S5000x32_1_0_0_1_n_n 256 rfl rfl k
  have el : dot_S5000x256_S256x32_S5000x32_1_0_0_1_n_n.lhsIdx (ix2 p q) ((contrEquiv1 dot_S5000x256_S256x32_S5000x32_1_0_0_1_n_n 256 rfl rfl).symm k) = ix2 p k := funext fun a => Fin.ext (by
    match a with
    | ⟨0, _⟩ => exact tileDot0_lhs_row _ _
    | ⟨1, _⟩ => exact (tileDot0_lhs_contr _ _).trans hk)
  have er : dot_S5000x256_S256x32_S5000x32_1_0_0_1_n_n.rhsIdx (ix2 p q) ((contrEquiv1 dot_S5000x256_S256x32_S5000x32_1_0_0_1_n_n 256 rfl rfl).symm k) = ix2 k q := funext fun a => Fin.ext (by
    match a with
    | ⟨0, _⟩ => exact (tileDot0_rhs_contr _ _).trans hk
    | ⟨1, _⟩ => exact tileDot0_rhs_col _ _)
  show x0 _ * x1 _ = _
  rw [el, er]

/-- The whole product at (r, q) is the sum over k of row r of the array times column q of the weight. -/
theorem wholeProduct0_apply (A : FVec Ideal S100000x256 .f32) (B : FVec Ideal S256x32 .f32) (r : Fin 100000) (q : Fin 32) :
    Host.dotGeneral (F := Ideal) (φ₁ := .f32) (φ₂ := .f32) Cert.ReferenceIdeal.dot_S100000x256_S256x32_S100000x32_1_0_0_1_n_n none A B (ix2 r q)
      = ∑ k : Fin 256, A (ix2 r k) * B (ix2 k q) := by
  simp only [Host.dotGeneral]
  rw [Ideal.dotGeneral_apply]
  rw [← Equiv.sum_comp (contrEquiv1 Cert.ReferenceIdeal.dot_S100000x256_S256x32_S100000x32_1_0_0_1_n_n 256 rfl rfl).symm]
  refine Finset.sum_congr rfl fun k _ => ?_
  have hk := contrEquiv1_symm_val Cert.ReferenceIdeal.dot_S100000x256_S256x32_S100000x32_1_0_0_1_n_n 256 rfl rfl k
  have el : Cert.ReferenceIdeal.dot_S100000x256_S256x32_S100000x32_1_0_0_1_n_n.lhsIdx (ix2 r q) ((contrEquiv1 Cert.ReferenceIdeal.dot_S100000x256_S256x32_S100000x32_1_0_0_1_n_n 256 rfl rfl).symm k) = ix2 r k := funext fun a => Fin.ext (by
    match a with
    | ⟨0, _⟩ => exact wholeDot0_lhs_row _ _
    | ⟨1, _⟩ => exact (wholeDot0_lhs_contr _ _).trans hk)
  have er : Cert.ReferenceIdeal.dot_S100000x256_S256x32_S100000x32_1_0_0_1_n_n.rhsIdx (ix2 r q) ((contrEquiv1 Cert.ReferenceIdeal.dot_S100000x256_S256x32_S100000x32_1_0_0_1_n_n 256 rfl rfl).symm k) = ix2 k q := funext fun a => Fin.ext (by
    match a with
    | ⟨0, _⟩ => exact (wholeDot0_rhs_contr _ _).trans hk
    | ⟨1, _⟩ => exact wholeDot0_rhs_col _ _)
  rw [el, er]

/-- A tile whose rows are rows of the array, against the same weight: the tile product is those rows of the whole product. -/
theorem tile_eq_rows0 (x0 : FVec Ideal S5000x256 .f32) (x1 : FVec Ideal S256x32 .f32)
    (A : FVec Ideal S100000x256 .f32) (B : FVec Ideal S256x32 .f32) (p : Fin 5000) (q : Fin 32) (r : Fin 100000)
    (h0 : ∀ k : Fin 256, x0 (ix2 p k) = A (ix2 r k)) (h1 : ∀ k : Fin 256, x1 (ix2 k q) = B (ix2 k q)) :
    k0_pay1 (F := Ideal) x0 x1 (ix2 p q)
      = Host.dotGeneral (F := Ideal) (φ₁ := .f32) (φ₂ := .f32) Cert.ReferenceIdeal.dot_S100000x256_S256x32_S100000x32_1_0_0_1_n_n none A B (ix2 r q) := by
  rw [tileProduct0_apply, wholeProduct0_apply]
  exact Finset.sum_congr rfl fun k _ => by rw [h0 k, h1 k]

/-- The printed index maps over the 20 grid points: the row window and the output window are at block (t, 0), the weight
    window at block (0, 0). -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- The row window's block at point t is rows 5000·t … 5000·t + 4999 of the array. -/
theorem rowsBlock0_apply (c : Dev nD) (t : Fin cfg0.N) (p : Fin 5000) (k : Fin 256) (r : Fin 100000)
    (hr : r.val = 5000 * t.val + p.val) :
    (iblk0 (F := Ideal) V c 0 t : FVec Ideal S5000x256 .f32) (ix2 p k) = (V c main_arg0 : FVec Ideal S100000x256 .f32) (ix2 r k) := by
  obtain ⟨e0, e1, -⟩ := blockIndex0 t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 256 + 1 * k.val = k.val; omega

/-- The weight window's block at every point is the whole weight. -/
theorem weightBlock0_apply (c : Dev nD) (t : Fin cfg0.N) (k : Fin 256) (q : Fin 32) :
    (iblk0 (F := Ideal) V c 1 t : FVec Ideal S256x32 .f32) (ix2 k q) = (V c main_arg3 : FVec Ideal S256x32 .f32) (ix2 k q) := by
  obtain ⟨-, -, e2, e3, -⟩ := blockIndex0 t
  unfold iblk0
  rw [View.read_apply]
  show V c main_arg3 _ = V c main_arg3 _
  refine congrArg (V c main_arg3) (funext fun a => Fin.ext ?_)
  match a with
  | ⟨0, _⟩ => show win0_1.index t (0 : Fin 2) * 256 + 1 * k.val = k.val; omega
  | ⟨1, _⟩ => show win0_1.index t (1 : Fin 2) * 32 + 1 * q.val = q.val; omega

/-- What point t writes back is block t of the whole product of the arrays as the region finds them. -/
theorem flushed0_eq (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S100000x256_S256x32_S100000x32_1_0_0_1_n_n none (V c main_arg0) (V c main_arg3)) := by
  show (cfg0.win 2).cut (grid0.coords t) ((dat0 V c).after 2 t) = _
  rw [after0_2]
  unfold out0_2
  rw [View.canon_unit_zero origin2]
  simp only [View.ld_unit_zero (S := S5000x256) origin2, View.ld_unit_zero (S := S256x32) origin2]
  obtain ⟨-, -, -, -, e4, e5⟩ := blockIndex0 t
  have ht : t.val < 20 := by have h := t.isLt; have hN : cfg0.N = 20 := N_0; omega
  refine funext fun (j : S5000x32.Idx) => ?_
  obtain ⟨p, q, rfl⟩ : ∃ (p : Fin 5000) (q : Fin 32), j = ix2 p q := ⟨j 0, j 1, eq_ix2 j⟩
  have hp : p.val < 5000 := p.isLt
  have hemb : ((cfg0.win 2).blk t).view.emb (ix2 p q) = (ix2 (⟨5000 * t.val + p.val, by omega⟩ : Fin 100000) q : S100000x32.Idx) :=
    funext fun a => Fin.ext (by
      match a with
      | ⟨0, _⟩ => show win0_2.index t (0 : Fin 2) * 5000 + 1 * p.val = 5000 * t.val + p.val; omega
      | ⟨1, _⟩ => show win0_2.index t (1 : Fin 2) * 32 + 1 * q.val = q.val; omega)
  rw [View.read_apply, hemb]
  exact tile_eq_rows0 (iblk0 V c 0 t) (iblk0 V c 1 t) (V c main_arg0) (V c main_arg3) p q ⟨5000 * t.val + p.val, by omega⟩
    (fun k => rowsBlock0_apply V c t p k ⟨5000 * t.val + p.val, by omega⟩ rfl) (fun k => weightBlock0_apply V c t k q)

end

/-- An index of the array is in point t's block iff each coordinate is in the block's range on its axis. -/
theorem mem_rowBlock0 (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v0).slice (win0_2.rect t)).set ↔ _
  rw [View.set_slice_whole, Rect.mem_set_unit]
  exact Iff.rfl

/-- The 20 row blocks tile the array: row r lies in the block of point r / 5000, which writes back. -/
theorem rowBlocks_cover0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  have hlt : (i 0).val / 5000 < cfg0.N := by rw [hN]; omega
  obtain ⟨-, -, -, -, e4, e5⟩ := blockIndex0 ⟨(i 0).val / 5000, hlt⟩
  have e4' : win0_2.index ⟨(i 0).val / 5000, hlt⟩ (0 : Fin 2) = (i 0).val / 5000 := e4
  refine ⟨⟨(i 0).val / 5000, hlt⟩, flush0_2 _, ?_⟩
  rw [mem_rowBlock0]
  intro a
  match a with
  | ⟨0, _⟩ => show win0_2.index ⟨(i 0).val / 5000, hlt⟩ (0 : Fin 2) * 5000 ≤ (i 0).val ∧ (i 0).val < win0_2.index ⟨(i 0).val / 5000, hlt⟩ (0 : Fin 2) * 5000 + 5000; omega
  | ⟨1, _⟩ => show win0_2.index ⟨(i 0).val / 5000, hlt⟩ (1 : Fin 2) * 32 ≤ (i 1).val ∧ (i 1).val < win0_2.index ⟨(i 0).val / 5000, hlt⟩ (1 : Fin 2) * 32 + 32; omega

/-- Region 0's output array after its 20 write-backs is the whole product of the arrays the region was entered with. -/
theorem region0_array (V : (c : Dev nD) → (b : Ref sig .tc) → Buf (Elt Ideal) ((c : Thread nD τ).loc b)) (c : Dev nD) :
    (dat0 (F := Ideal) V c).arrAt 2 cfg0.N
      = Host.dotGeneral (F := Ideal) (φ₁ := .f32) (φ₂ := .f32) Cert.ReferenceIdeal.dot_S100000x256_S256x32_S100000x32_1_0_0_1_n_n none
          (V c main_arg0) (V c main_arg3) :=
  (dat0 (F := Ideal) V c).arrAt_eq_of_cover 2 _ (fun t _ => flushed0_eq V c t) rowBlocks_cover0

/-! ## Region 1: a [5000,32] tile of rows times the whole [32,8] weight -/

theorem tileDot1_lhs_row (i : S5000x8.Idx) (s : dot_S5000x32_S32x8_S5000x8_1_0_0_1_n_n.contr.Idx) :
    (dot_S5000x32_S32x8_S5000x8_1_0_0_1_n_n.lhsIdx i s 0).val = (i 0).val := by
  unfold DotDims.lhsIdx
  rw [dif_neg (show ¬(0 : Fin S5000x32.rank) ∈ dot_S5000x32_S32x8_S5000x8_1_0_0_1_n_n.lhsBatch by decide), dif_pos (show (0 : Fin S5000x32.rank) ∈ dot_S5000x32_S32x8_S5000x8_1_0_0_1_n_n.lhsNonContracting by decide)]
  rfl
theorem tileDot1_lhs_contr (i : S5000x8.Idx) (s : dot_S5000x32_S32x8_S5000x8_1_0_0_1_n_n.contr.Idx) :
    (dot_S5000x32_S32x8_S5000x8_1_0_0_1_n_n.lhsIdx i s 1).val = (s ⟨0, by decide⟩).val :=
  dot_S5000x32_S32x8_S5000x8_1_0_0_1_n_n.lhsIdx_val_of_single rfl i s
theorem tileDot1_rhs_contr (i : S5000x8.Idx) (s : dot_S5000x32_S32x8_S5000x8_1_0_0_1_n_n.contr.Idx) :
    (dot_S5000x32_S32x8_S5000x8_1_0_0_1_n_n.rhsIdx i s 0).val = (s ⟨0, by decide⟩).val :=
  dot_S5000x32_S32x8_S5000x8_1_0_0_1_n_n.rhsIdx_val_of_single rfl i s
theorem tileDot1_rhs_col (i : S5000x8.Idx) (s : dot_S5000x32_S32x8_S5000x8_1_0_0_1_n_n.contr.Idx) :
    (dot_S5000x32_S32x8_S5000x8_1_0_0_1_n_n.rhsIdx i s 1).val = (i 1).val := by
  unfold DotDims.rhsIdx
  rw [dif_neg (show ¬(1 : Fin S32x8.rank) ∈ dot_S5000x32_S32x8_S5000x8_1_0_0_1_n_n.rhsBatch by decide), dif_pos (show (1 : Fin S32x8.rank) ∈ dot_S5000x32_S32x8_S5000x8_1_0_0_1_n_n.rhsNonContracting by decide)]
  rfl

theorem wholeDot1_lhs_row (i : S100000x8.Idx) (s : Cert.ReferenceIdeal.dot_S100000x32_S32x8_S100000x8_1_0_0_1_n_n.contr.Idx) :
    (Cert.ReferenceIdeal.dot_S100000x32_S32x8_S100000x8_1_0_0_1_n_n.lhsIdx i s 0).val = (i 0).val := by
  unfold DotDims.lhsIdx
  rw [dif_neg (show ¬(0 : Fin S100000x32.rank) ∈ Cert.ReferenceIdeal.dot_S100000x32_S32x8_S100000x8_1_0_0_1_n_n.lhsBatch by decide), dif_pos (show (0 : Fin S100000x32.rank) ∈ Cert.ReferenceIdeal.dot_S100000x32_S32x8_S100000x8_1_0_0_1_n_n.lhsNonContracting by decide)]
  rfl
theorem wholeDot1_lhs_contr (i : S100000x8.Idx) (s : Cert.ReferenceIdeal.dot_S100000x32_S32x8_S100000x8_1_0_0_1_n_n.contr.Idx) :
    (Cert.ReferenceIdeal.dot_S100000x32_S32x8_S100000x8_1_0_0_1_n_n.lhsIdx i s 1).val = (s ⟨0, by decide⟩).val :=
  Cert.ReferenceIdeal.dot_S100000x32_S32x8_S100000x8_1_0_0_1_n_n.lhsIdx_val_of_single rfl i s
theorem wholeDot1_rhs_contr (i : S100000x8.Idx) (s : Cert.ReferenceIdeal.dot_S100000x32_S32x8_S100000x8_1_0_0_1_n_n.contr.Idx) :
    (Cert.ReferenceIdeal.dot_S100000x32_S32x8_S100000x8_1_0_0_1_n_n.rhsIdx i s 0).val = (s ⟨0, by decide⟩).val :=
  Cert.ReferenceIdeal.dot_S100000x32_S32x8_S100000x8_1_0_0_1_n_n.rhsIdx_val_of_single rfl i s
theorem wholeDot1_rhs_col (i : S100000x8.Idx) (s : Cert.ReferenceIdeal.dot_S100000x32_S32x8_S100000x8_1_0_0_1_n_n.contr.Idx) :
    (Cert.ReferenceIdeal.dot_S100000x32_S32x8_S100000x8_1_0_0_1_n_n.rhsIdx i s 1).val = (i 1).val := by
  unfold DotDims.rhsIdx
  rw [dif_neg (show ¬(1 : Fin S32x8.rank) ∈ Cert.ReferenceIdeal.dot_S100000x32_S32x8_S100000x8_1_0_0_1_n_n.rhsBatch by decide), dif_pos (show (1 : Fin S32x8.rank) ∈ Cert.ReferenceIdeal.dot_S100000x32_S32x8_S100000x8_1_0_0_1_n_n.rhsNonContracting by decide)]
  rfl

/-- The tile product at (p, q) is the sum over k of row p of the tile times column q of the weight: rounding the
    operands is the identity on the extended reals and the accumulator is the zero splat. -/
theorem tileProduct1_apply (x0 : FVec Ideal S5000x32 .f32) (x1 : FVec Ideal S32x8 .f32) (p : Fin 5000) (q : Fin 8) :
    k1_pay1 (F := Ideal) x0 x1 (ix2 p q) = ∑ k : Fin 32, x0 (ix2 p k) * x1 (ix2 k q) := by
  unfold k1_pay1
  rw [shapeCast_self]
  refine (Ideal.matmul_constant_zero_apply dot_S5000x32_S32x8_S5000x8_1_0_0_1_n_n none _ _ (ix2 p q)).trans ?_
  rw [← Equiv.sum_comp (contrEquiv1 dot_S5000x32_S32x8_S5000x8_1_0_0_1_n_n 32 rfl rfl).symm]
  refine Finset.sum_congr rfl fun k _ => ?_
  have hk := contrEquiv1_symm_val dot_S5000x32_S32x8_S5000x8_1_0_0_1_n_n 32 rfl rfl k
  have el : dot_S5000x32_S32x8_S5000x8_1_0_0_1_n_n.lhsIdx (ix2 p q) ((contrEquiv1 dot_S5000x32_S32x8_S5000x8_1_0_0_1_n_n 32 rfl rfl).symm k) = ix2 p k := funext fun a => Fin.ext (by
    match a with
    | ⟨0, _⟩ => exact tileDot1_lhs_row _ _
    | ⟨1, _⟩ => exact (tileDot1_lhs_contr _ _).trans hk)
  have er : dot_S5000x32_S32x8_S5000x8_1_0_0_1_n_n.rhsIdx (ix2 p q) ((contrEquiv1 dot_S5000x32_S32x8_S5000x8_1_0_0_1_n_n 32 rfl rfl).symm k) = ix2 k q := funext fun a => Fin.ext (by
    match a with
    | ⟨0, _⟩ => exact (tileDot1_rhs_contr _ _).trans hk
    | ⟨1, _⟩ => exact tileDot1_rhs_col _ _)
  show x0 _ * x1 _ = _
  rw [el, er]

/-- The whole product at (r, q) is the sum over k of row r of the array times column q of the weight. -/
theorem wholeProduct1_apply (A : FVec Ideal S100000x32 .f32) (B : FVec Ideal S32x8 .f32) (r : Fin 100000) (q : Fin 8) :
    Host.dotGeneral (F := Ideal) (φ₁ := .f32) (φ₂ := .f32) Cert.ReferenceIdeal.dot_S100000x32_S32x8_S100000x8_1_0_0_1_n_n none A B (ix2 r q)
      = ∑ k : Fin 32, A (ix2 r k) * B (ix2 k q) := by
  simp only [Host.dotGeneral]
  rw [Ideal.dotGeneral_apply]
  rw [← Equiv.sum_comp (contrEquiv1 Cert.ReferenceIdeal.dot_S100000x32_S32x8_S100000x8_1_0_0_1_n_n 32 rfl rfl).symm]
  refine Finset.sum_congr rfl fun k _ => ?_
  have hk := contrEquiv1_symm_val Cert.ReferenceIdeal.dot_S100000x32_S32x8_S100000x8_1_0_0_1_n_n 32 rfl rfl k
  have el : Cert.ReferenceIdeal.dot_S100000x32_S32x8_S100000x8_1_0_0_1_n_n.lhsIdx (ix2 r q) ((contrEquiv1 Cert.ReferenceIdeal.dot_S100000x32_S32x8_S100000x8_1_0_0_1_n_n 32 rfl rfl).symm k) = ix2 r k := funext fun a => Fin.ext (by
    match a with
    | ⟨0, _⟩ => exact wholeDot1_lhs_row _ _
    | ⟨1, _⟩ => exact (wholeDot1_lhs_contr _ _).trans hk)
  have er : Cert.ReferenceIdeal.dot_S100000x32_S32x8_S100000x8_1_0_0_1_n_n.rhsIdx (ix2 r q) ((contrEquiv1 Cert.ReferenceIdeal.dot_S100000x32_S32x8_S100000x8_1_0_0_1_n_n 32 rfl rfl).symm k) = ix2 k q := funext fun a => Fin.ext (by
    match a with
    | ⟨0, _⟩ => exact (wholeDot1_rhs_contr _ _).trans hk
    | ⟨1, _⟩ => exact wholeDot1_rhs_col _ _)
  rw [el, er]

/-- A tile whose rows are rows of the array, against the same weight: the tile product is those rows of the whole product. -/
theorem tile_eq_rows1 (x0 : FVec Ideal S5000x32 .f32) (x1 : FVec Ideal S32x8 .f32)
    (A : FVec Ideal S100000x32 .f32) (B : FVec Ideal S32x8 .f32) (p : Fin 5000) (q : Fin 8) (r : Fin 100000)
    (h0 : ∀ k : Fin 32, x0 (ix2 p k) = A (ix2 r k)) (h1 : ∀ k : Fin 32, x1 (ix2 k q) = B (ix2 k q)) :
    k1_pay1 (F := Ideal) x0 x1 (ix2 p q)
      = Host.dotGeneral (F := Ideal) (φ₁ := .f32) (φ₂ := .f32) Cert.ReferenceIdeal.dot_S100000x32_S32x8_S100000x8_1_0_0_1_n_n none A B (ix2 r q) := by
  rw [tileProduct1_apply, wholeProduct1_apply]
  exact Finset.sum_congr rfl fun k _ => by rw [h0 k, h1 k]

/-- The printed index maps over the 20 grid points: the row window and the output window are at block (t, 0), the weight
    window at block (0, 0). -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- The row window's block at point t is rows 5000·t … 5000·t + 4999 of the array. -/
theorem rowsBlock1_apply (c : Dev nD) (t : Fin cfg1.N) (p : Fin 5000) (k : Fin 32) (r : Fin 100000)
    (hr : r.val = 5000 * t.val + p.val) :
    (iblk1 (F := Ideal) V c 0 t : FVec Ideal S5000x32 .f32) (ix2 p k) = (V c main_v47 : FVec Ideal S100000x32 .f32) (ix2 r k) := by
  obtain ⟨e0, e1, -⟩ := blockIndex1 t
  unfold iblk1
  rw [View.read_apply]
  show V c main_v47 _ = V c main_v47 _
  refine congrArg (V c main_v47) (funext fun a => Fin.ext ?_)
  match a with
  | ⟨0, _⟩ => show win1_0.index t (0 : Fin 2) * 5000 + 1 * p.val = r.val; omega
  | ⟨1, _⟩ => show win1_0.index t (1 : Fin 2) * 32 + 1 * k.val = k.val; omega

/-- The weight window's block at every point is the whole weight. -/
theorem weightBlock1_apply (c : Dev nD) (t : Fin cfg1.N) (k : Fin 32) (q : Fin 8) :
    (iblk1 (F := Ideal) V c 1 t : FVec Ideal S32x8 .f32) (ix2 k q) = (V c main_arg5 : FVec Ideal S32x8 .f32) (ix2 k q) := by
  obtain ⟨-, -, e2, e3, -⟩ := blockIndex1 t
  unfold iblk1
  rw [View.read_apply]
  show V c main_arg5 _ = V c main_arg5 _
  refine congrArg (V c main_arg5) (funext fun a => Fin.ext ?_)
  match a with
  | ⟨0, _⟩ => show win1_1.index t (0 : Fin 2) * 32 + 1 * k.val = k.val; omega
  | ⟨1, _⟩ => show win1_1.index t (1 : Fin 2) * 8 + 1 * q.val = q.val; omega

/-- What point t writes back is block t of the whole product of the arrays as the region finds them. -/
theorem flushed1_eq (c : Dev nD) (t : Fin cfg1.N) :
    (dat1 (F := Ideal) V c).flushed 2 t = ((cfg1.win 2).blk t).view.read (Elt Ideal)
      (Host.dotGeneral (F := Ideal) (φ₁ := .f32) (φ₂ := .f32) Cert.ReferenceIdeal.dot_S100000x32_S32x8_S100000x8_1_0_0_1_n_n none (V c main_v47) (V c main_arg5)) := by
  show (cfg1.win 2).cut (grid1.coords t) ((dat1 V c).after 2 t) = _
  rw [after1_2]
  unfold out1_2
  rw [View.canon_unit_zero origin2]
  simp only [View.ld_unit_zero (S := S5000x32) origin2, View.ld_unit_zero (S := S32x8) origin2]
  obtain ⟨-, -, -, -, e4, e5⟩ := blockIndex1 t
  have ht : t.val < 20 := by have h := t.isLt; have hN : cfg1.N = 20 := N_1; omega
  refine funext fun (j : S5000x8.Idx) => ?_
  obtain ⟨p, q, rfl⟩ : ∃ (p : Fin 5000) (q : Fin 8), j = ix2 p q := ⟨j 0, j 1, eq_ix2 j⟩
  have hp : p.val < 5000 := p.isLt
  have hemb : ((cfg1.win 2).blk t).view.emb (ix2 p q) = (ix2 (⟨5000 * t.val + p.val, by omega⟩ : Fin 100000) q : S100000x8.Idx) :=
    funext fun a => Fin.ext (by
      match a with
      | ⟨0, _⟩ => show win1_2.index t (0 : Fin 2) * 5000 + 1 * p.val = 5000 * t.val + p.val; omega
      | ⟨1, _⟩ => show win1_2.index t (1 : Fin 2) * 8 + 1 * q.val = q.val; omega)
  rw [View.read_apply, hemb]
  exact tile_eq_rows1 (iblk1 V c 0 t) (iblk1 V c 1 t) (V c main_v47) (V c main_arg5) p q ⟨5000 * t.val + p.val, by omega⟩
    (fun k => rowsBlock1_apply V c t p k ⟨5000 * t.val + p.val, by omega⟩ rfl) (fun k => weightBlock1_apply V c t k q)

end

/-- An index of the array is in point t's block iff each coordinate is in the block's range on its axis. -/
theorem mem_rowBlock1 (t : Fin cfg1.N) (i : S100000x8.Idx) :
    i ∈ ((cfg1.win 2).blk t).view.set ↔ ∀ a : Fin 2, win1_2.index t a * S5000x8.size a ≤ (i a).val ∧ (i a).val < win1_2.index t a * S5000x8.size a + S5000x8.size a := by
  show i ∈ ((View.whole main_v48).slice (win1_2.rect t)).set ↔ _
  rw [View.set_slice_whole, Rect.mem_set_unit]
  exact Iff.rfl

/-- The 20 row blocks tile the array: row r lies in the block of point r / 5000, which writes back. -/
theorem rowBlocks_cover1 (i : S100000x8.Idx) :
    ∃ t : Fin cfg1.N, (cfg1.win 2).flush t = true ∧ i ∈ ((cfg1.win 2).blk t).view.set := by
  have hi0 : (i 0).val < 100000 := (i 0).isLt
  have hi1 : (i 1).val < 8 := (i 1).isLt
  have hN : cfg1.N = 20 := N_1
  have hlt : (i 0).val / 5000 < cfg1.N := by rw [hN]; omega
  obtain ⟨-, -, -, -, e4, e5⟩ := blockIndex1 ⟨(i 0).val / 5000, hlt⟩
  have e4' : win1_2.index ⟨(i 0).val / 5000, hlt⟩ (0 : Fin 2) = (i 0).val / 5000 := e4
  refine ⟨⟨(i 0).val / 5000, hlt⟩, flush1_2 _, ?_⟩
  rw [mem_rowBlock1]
  intro a
  match a with
  | ⟨0, _⟩ => show win1_2.index ⟨(i 0).val / 5000, hlt⟩ (0 : Fin 2) * 5000 ≤ (i 0).val ∧ (i 0).val < win1_2.index ⟨(i 0).val / 5000, hlt⟩ (0 : Fin 2) * 5000 + 5000; omega
  | ⟨1, _⟩ => show win1_2.index ⟨(i 0).val / 5000, hlt⟩ (1 : Fin 2) * 8 ≤ (i 1).val ∧ (i 1).val < win1_2.index ⟨(i 0).val / 5000, hlt⟩ (1 : Fin 2) * 8 + 8; omega

/-- Region 1's output array after its 20 write-backs is the whole product of the arrays the region was entered with. -/
theorem region1_array (V : (c : Dev nD) → (b : Ref sig .tc) → Buf (Elt Ideal) ((c : Thread nD τ).loc b)) (c : Dev nD) :
    (dat1 (F := Ideal) V c).arrAt 2 cfg1.N
      = Host.dotGeneral (F := Ideal) (φ₁ := .f32) (φ₂ := .f32) Cert.ReferenceIdeal.dot_S100000x32_S32x8_S100000x8_1_0_0_1_n_n none
          (V c main_v47) (V c main_arg5) :=
  (dat1 (F := Ideal) V c).arrAt_eq_of_cover 2 _ (fun t _ => flushed1_eq V c t) rowBlocks_cover1

end Cert.KernelIdeal.RegionProduct
end
-- ==== Proof.HostBridge.lean ====
/- The host bridge: the kernel program's result buffer, read back through the host operations and the two
   regions' arrays to the launch memory, is the reference program's result buffer read back through its one line of
   operations — given that each region's output array is the whole product of its two operand arrays (`hr0`, `hr1`)
   and that the two launch memories agree on the seven argument arrays (`hagree`).

   Both programs compute the same composed term over the arguments: every host operation of the kernel program is
   an operation of the reference with the same function, and where the kernel program has a region the reference has
   the product itself. So both sides are opened, operation by operation, to that term — at each operation its own
   result buffer holds its function's value at its operands' contents and every other buffer what it held before —
   and the two terms are then equal by definition (the two modules' shape and index-map records are separate
   definitions with equal bodies). -/
import proofs.«180748_j77850577207790_1_alg».proof.Proof.Gen.KernelIdeal.Frame
import proofs.«180748_j77850577207790_1_alg».proof.Proof.ReferenceRun
import proofs.«180748_j77850577207790_1_alg».proof.Proof.KernelRun
import proofs.«180748_j77850577207790_1_alg».proof.Defs

noncomputable section
namespace Cert.KernelIdeal.HostBridge
open Cert.KernelIdeal Cert.KernelIdeal.Gen Idealize.ShloMosaic Idealize.ShloMosaic.TcCoe Idealize.SL.Sem

/-- The concatenation of two arrays along an axis, the two arrays as plain arguments. (In `concatenate` they sit in
    a list of shape–array pairs on which the well-formedness proof depends; stated this way an equation between
    arrays can be used underneath the concatenation.) -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- `concatenate` of a two-element list is `cat2` of its two arrays. -/
theorem concatenate_pair {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = cat2 t a s₁ s₂ h x y := rfl

/-- A buffer that is none of region 0's three arrays holds at the region's exit what it held at its entry
    (`W1_of_ne` with the reference left un-indexed, so that the equation is found at any literal reference). -/
theorem W1_ne' (m : (ℓ : Loc nD τ sig) → Buf (Elt Ideal) ℓ) (ρ : Dev nD → PrngReg) (c : Dev nD) (b : Ref sig .tc)
    (hb : ∀ w, Pipeline.arrRef spec0 w ≠ b) :
    W1 (F := Ideal) m ρ c (no_index (Proc.devRef .tc b)) = W0 (F := Ideal) m ρ c (Proc.devRef .tc b) :=
  W1_of_ne m ρ c b hb

/-- The same at region 1: a buffer that is none of its three arrays is as at the region's entry. -/
theorem W6_ne' (m : (ℓ : Loc nD τ sig) → Buf (Elt Ideal) ℓ) (ρ : Dev nD → PrngReg) (c : Dev nD) (b : Ref sig .tc)
    (hb : ∀ w, Pipeline.arrRef spec1 w ≠ b) :
    W6 (F := Ideal) m ρ c (no_index (Proc.devRef .tc b)) = W5 (F := Ideal) m ρ c (Proc.devRef .tc b) :=
  W6_of_ne m ρ c b hb

set_option maxRecDepth 8192 in
set_option maxHeartbeats 4000000 in
/-- The kernel program's final contents of the result buffer `main_v108` are the reference's.

    Kernel side: the final valuation is a fold from the launch memory — region 0's arrays written, four stretches of
    host operations, region 1's arrays written, six more stretches. Read at `main_v108` it opens stretch by stretch:
    an operation's own result buffer holds its function's value at its operands' contents, any other buffer what it
    held before; at region 1's exit `main_v48` holds the product of `main_v47` and `main_arg5` as they were at its
    entry (`hr1`) and every buffer outside the region's arrays is as at the entry; likewise `main_v0` at region 0's
    exit (`hr0`); at the launch every argument holds its launch contents. Reference side: the same opening over its
    one line of operations, whose two `dot_general`s stand where the regions are, down to its launch contents, which
    are the kernel's on the arguments (`hagree`). What is left is an equation between two copies of one composed
    term, one over each module's records: true by definition. -/
theorem result_eq (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (c : Dev nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (hr0 : W1 (F := Ideal) m ρ c (Proc.devRef .tc main_v0)
      = Host.dotGeneral (F := Ideal) (φ₁ := .f32) (φ₂ := .f32) Cert.ReferenceIdeal.dot_S100000x256_S256x32_S100000x32_1_0_0_1_n_n none
          (V0 (F := Ideal) m ρ c main_arg0) (V0 (F := Ideal) m ρ c main_arg3))
    (hr1 : W6 (F := Ideal) m ρ c (Proc.devRef .tc main_v48)
      = Host.dotGeneral (F := Ideal) (φ₁ := .f32) (φ₂ := .f32) Cert.ReferenceIdeal.dot_S100000x32_S32x8_S100000x8_1_0_0_1_n_n none
          (V5 (F := Ideal) m ρ c main_v47) (V5 (F := Ideal) m ρ c main_arg5)) :
    W12 (F := Ideal) m ρ c (Proc.devRef .tc main_v108)
      = StableHlo.after (Cert.ReferenceIdeal.ValueP.ops (F := Ideal)) (StableHlo.launchContents m' c)
          (Proc.devRef .tc Cert.ReferenceIdeal.main_v108) := by
  obtain ⟨h0, h1, h2, h3, h4, h5, h6⟩ := hagree
  -- the reference's launch contents at each argument are the kernel's launch valuation there
  have e0 : StableHlo.launchContents m' c (Proc.devRef .tc Cert.ReferenceIdeal.main_arg0)
      = W0 (F := Ideal) m ρ c (Proc.devRef .tc main_arg0) := h0
  have e1 : StableHlo.launchContents m' c (Proc.devRef .tc Cert.ReferenceIdeal.main_arg1)
      = W0 (F := Ideal) m ρ c (Proc.devRef .tc main_arg1) := h1
  have e2 : StableHlo.launchContents m' c (Proc.devRef .tc Cert.ReferenceIdeal.main_arg2)
      = W0 (F := Ideal) m ρ c (Proc.devRef .tc main_arg2) := h2
  have e3 : StableHlo.launchContents m' c (Proc.devRef .tc Cert.ReferenceIdeal.main_arg3)
      = W0 (F := Ideal) m ρ c (Proc.devRef .tc main_arg3) := h3
  have e4 : StableHlo.launchContents m' c (Proc.devRef .tc Cert.ReferenceIdeal.main_arg4)
      = W0 (F := Ideal) m ρ c (Proc.devRef .tc main_arg4) := h4
  have e5 : StableHlo.launchContents m' c (Proc.devRef .tc Cert.ReferenceIdeal.main_arg5)
      = W0 (F := Ideal) m ρ c (Proc.devRef .tc main_arg5) := h5
  have e6 : StableHlo.launchContents m' c (Proc.devRef .tc Cert.ReferenceIdeal.main_arg6)
      = W0 (F := Ideal) m ρ c (Proc.devRef .tc main_arg6) := h6
  clear h0 h1 h2 h3 h4 h5 h6
  -- both folds opened to the composed term over the kernel's launch valuation at the arguments
  simp (disch := decide) only [
      StableHlo.after_cons, StableHlo.after_nil, StableHlo.nullary_result', StableHlo.unary_result',
      StableHlo.binary_result', StableHlo.ternary_result', StableHlo.quaternary_result', StableHlo.reshape_result',
      StableHlo.nary4_result', StableHlo.nary_result', StableHlo.unaryIndexed_result',
      StableHlo.binaryIndexed_result', StableHlo.nullary_result_ne', StableHlo.unary_result_ne',
      StableHlo.binary_result_ne', StableHlo.ternary_result_ne', StableHlo.quaternary_result_ne',
      StableHlo.reshape_result_ne', StableHlo.nary_result_ne', StableHlo.unaryIndexed_result_ne',
      StableHlo.binaryIndexed_result_ne',
      concatenate_pair, hr0, hr1, W6_ne', W1_ne', V0, V5, e0, e1, e2, e3, e4, e5, e6]
  -- the two modules' records (shapes, broadcast / gather / scatter index maps) have equal bodies
  rfl

end Cert.KernelIdeal.HostBridge
end
-- ==== Proof.lean ====
/-
  The claim: a two-layer graph convolution network — per layer a dense product X·W, the symmetric-normalised
  scatter-add over the edges with self-loops, a bias and a relu; then a mean pool per graph and a log-softmax — computed
  by a program whose two dense products are row-tiled kernels (twenty blocks of 5000 rows, the weight resident, the
  operands rounded to a narrower float format before the product and accumulated from zero) agrees, over the
  extended reals, with the plain array program whose products are single contractions.

  Why it holds.  Outside the two products the two programs are operation for operation the same host program.  At the
  ideal instance a change of float format is the identity and a product accumulated from the zero array is the plain
  sum over the contracted axis, so row block t of a tiled product is rows 5000·t … 5000·t + 4999 of the whole
  contraction, and the twenty blocks tile the array: each kernel region leaves in its output array exactly the
  contraction of its two operands (`RegionProduct`).  Reading the result buffer back through the host operations then
  gives one and the same term of the seven argument arrays on both sides (`HostBridge`).  No law of arithmetic beyond
  this is used — the sums are over the same index set in both programs — so the finiteness precondition is never opened.

  The three frames are the launches themselves (`KernelRun` keeps the result buffer of the idealized kernel's launch;
  the reference's run is its straight line of host operations), and the idealization rewrote nothing, so its
  preservation statement is trivial.
-/
import proofs.«180748_j77850577207790_1_alg».proof.Defs
import proofs.«180748_j77850577207790_1_alg».proof.Proof.Gen.Kernel
import proofs.«180748_j77850577207790_1_alg».proof.Proof.Gen.Kernel.Skeleton
import proofs.«180748_j77850577207790_1_alg».proof.Proof.Gen.Kernel.Launch
import proofs.«180748_j77850577207790_1_alg».proof.Proof.Gen.Kernel.Points
import proofs.«180748_j77850577207790_1_alg».proof.Proof.Gen.Kernel.Frame
import proofs.«180748_j77850577207790_1_alg».proof.Proof.Gen.KernelIdeal
import proofs.«180748_j77850577207790_1_alg».proof.Proof.Gen.KernelIdeal.Skeleton
import proofs.«180748_j77850577207790_1_alg».proof.Proof.Gen.KernelIdeal.Launch
import proofs.«180748_j77850577207790_1_alg».proof.Proof.Gen.KernelIdeal.Points
import proofs.«180748_j77850577207790_1_alg».proof.Proof.Gen.KernelIdeal.Frame
import proofs.«180748_j77850577207790_1_alg».proof.Proof.Gen.ReferenceIdeal
import proofs.«180748_j77850577207790_1_alg».proof.Proof.Gen.Pre_finite_inputs
import proofs.«180748_j77850577207790_1_alg».proof.Proof.ReferenceRun
import proofs.«180748_j77850577207790_1_alg».proof.Proof.KernelRun
import proofs.«180748_j77850577207790_1_alg».proof.Proof.RegionProduct
import proofs.«180748_j77850577207790_1_alg».proof.Proof.HostBridge
import Idealize.ShloMosaic.Adequacy
import Idealize.ShloMosaic.Init

noncomputable section

namespace Cert.Proof

open Idealize.ShloMosaic Idealize.ShloMosaic.TcCoe Idealize.SL.Sem

/-- The kernel as printed runs, and its arguments end as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.ValueP.run (F := Ideal) m ρ)

section
open Cert.KernelIdeal Cert.KernelIdeal.Gen

/-- After the first region its output buffer holds the contraction of the node features with the first weight. -/
theorem first_product (m : (ℓ : Loc nD τ sig) → Buf (Elt Ideal) ℓ) (ρ : Dev nD → PrngReg) (c : Dev nD) :
    W1 (F := Ideal) m ρ c (Proc.devRef .tc main_v0)
      = Host.dotGeneral (F := Ideal) (φ₁ := .f32) (φ₂ := .f32) Cert.ReferenceIdeal.dot_S100000x256_S256x32_S100000x32_1_0_0_1_n_n none
          (V0 (F := Ideal) m ρ c main_arg0) (V0 (F := Ideal) m ρ c main_arg3) :=
  (W1_arr m ρ c 2).trans (Cert.KernelIdeal.RegionProduct.region0_array (V0 m ρ) c)

/-- After the second region its output buffer holds the contraction of the first layer's activations with the
    second weight. -/
theorem second_product (m : (ℓ : Loc nD τ sig) → Buf (Elt Ideal) ℓ) (ρ : Dev nD → PrngReg) (c : Dev nD) :
    W6 (F := Ideal) m ρ c (Proc.devRef .tc main_v48)
      = Host.dotGeneral (F := Ideal) (φ₁ := .f32) (φ₂ := .f32) Cert.ReferenceIdeal.dot_S100000x32_S32x8_S100000x8_1_0_0_1_n_n none
          (V5 (F := Ideal) m ρ c main_v47) (V5 (F := Ideal) m ρ c main_arg5) :=
  (W6_arr m ρ c 2).trans (Cert.KernelIdeal.RegionProduct.region1_array (V5 m ρ) c)

/-- From memories agreeing on the arguments both idealized programs run and end with the same result array: the
    kernel's last boundary valuation at the result buffer is the reference's fold of its operations there. -/
theorem algebraic : Cert.algebraic_KernelIdeal_ReferenceIdeal := by
  intro m ρ m' ρ' _ hagree
  refine ⟨fun c => W12 (F := Ideal) m ρ c (Proc.devRef .tc main_v108),
    Cert.KernelIdeal.KernelRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  exact (Cert.KernelIdeal.HostBridge.result_eq m ρ m' c (hagree c) (first_product m ρ c) (second_product m ρ c)).symm

end

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
